-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x2048 : Shape := ⟨2, ![512, 2048]⟩
abbrev S2048 : Shape := ⟨1, ![2048]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S512x2048 .f32) (main_arg5 : FVec F S2048 .f32) (main_arg6 : FVec F S2048 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S16384x512 .f32) (main_arg1 : FVec F S16384x512 .f32) (main_arg2 : FVec F S16384x512 .f32) (main_arg3 : FVec F S512x2048 .f32) (main_arg4 : FVec F S512x2048 .f32) (main_arg5 : FVec F S2048 .f32) (main_arg6 : FVec F S2048 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_arg6 main_v13 main_v16
-- ==== Kernel.lean ====
abbrev S16384x512 : Shape := ⟨2, ![16384, 512]⟩
abbrev S512x2048 : Shape := ⟨2, ![512, 2048]⟩
abbrev S2048 : Shape := ⟨1, ![2048]⟩
abbrev S1x2048 : Shape := ⟨2, ![1, 2048]⟩
abbrev S512x512 : Shape := ⟨2, ![512, 512]⟩

abbrev nBuf : Space → Nat
  | .hbm => 13
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x2048, .f32⟩
  | .hbm, ⟨4, _⟩ => ⟨S512x2048, .f32⟩
  | .hbm, ⟨5, _⟩ => ⟨S2048, .f32⟩
  | .hbm, ⟨6, _⟩ => ⟨S2048, .f32⟩
  | .hbm, ⟨7, _⟩ => ⟨S512x2048, .bf16⟩
  | .hbm, ⟨8, _⟩ => ⟨S512x2048, .bf16⟩
  | .hbm, ⟨9, _⟩ => ⟨S2048, .f32⟩
  | .hbm, ⟨10, _⟩ => ⟨S1x2048, .f32⟩
  | .hbm, ⟨11, _⟩ => ⟨S16384x512, .f32⟩
  | .hbm, ⟨12, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S16384x512.size a
  hwx0_7 : ∀ i : grid0.Coords, EltTy.bits .f32 = 32 ∨ (Rect.block (s := S16384x512) S512x512.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x2048 : Shape := ⟨2, ![512, 2048]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x2048, .f32⟩
  | .hbm, ⟨4, _⟩ => ⟨S512x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S1x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S1x2048, .f32⟩
  | .hbm, ⟨14, _⟩ => ⟨S16384x2048, .f32⟩
  | .hbm, ⟨15, _⟩ => ⟨S16384x2048, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.GatesBlock.lean ====
/-
  The pre-activations of one batch block, read at an index.

  The kernel body multiplies a [512, 512] block of `x` and one of `h` by the two whole weight matrices (each product
  into a zero accumulator), adds the two products and adds the bias row broadcast over the 512 rows. At the ideal values a
  change of float format is the identity and a matrix product into zero is the plain sum over the contracted axis, so at
  row `p` and gate column `q` of the block the value is
      Σ_k X[p,k]·Wx[k,q] + Σ_k H[p,k]·Wh[k,q] + b[0,q].
-/
import proofs.«155237_j11115375362476_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.GatesBlock

open Cert.KernelIdeal Cert.KernelIdeal.Gen Idealize.ShloMosaic Idealize.ShloMosaic.ValueIdx

/-- The left operand's index at output index `j` and contraction index `q`: row `j 0`, … -/
theorem lhs_row (j : S512x2048.Idx) (q : dot_S512x512_S512x2048_S512x2048_1_0_0_1_n_n.contr.Idx) :
    (dot_S512x512_S512x2048_S512x2048_1_0_0_1_n_n.lhsIdx j q 0).val = (j 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
/-- … column the contraction coordinate; -/
theorem lhs_col (j : S512x2048.Idx) (q : dot_S512x512_S512x2048_S512x2048_1_0_0_1_n_n.contr.Idx) :
    (dot_S512x512_S512x2048_S512x2048_1_0_0_1_n_n.lhsIdx j q 1).val = (q ⟨0, by decide⟩).val :=
  dot_S512x512_S512x2048_S512x2048_1_0_0_1_n_n.lhsIdx_val_of_single rfl j q
/-- the right operand's: row the contraction coordinate, … -/
theorem rhs_row (j : S512x2048.Idx) (q : dot_S512x512_S512x2048_S512x2048_1_0_0_1_n_n.contr.Idx) :
    (dot_S512x512_S512x2048_S512x2048_1_0_0_1_n_n.rhsIdx j q 0).val = (q ⟨0, by decide⟩).val :=
  dot_S512x512_S512x2048_S512x2048_1_0_0_1_n_n.rhsIdx_val_of_single rfl j q
/-- … column `j 1`. -/
theorem rhs_col (j : S512x2048.Idx) (q : dot_S512x512_S512x2048_S512x2048_1_0_0_1_n_n.contr.Idx) :
    (dot_S512x512_S512x2048_S512x2048_1_0_0_1_n_n.rhsIdx j q 1).val = (j 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- A [512, 512] block times a [512, 2048] matrix into the zero accumulator, at an index: the sum over the 512
    contracted coordinates of the products. -/
theorem product_apply (A : FVec Ideal S512x512 .bf16) (W : FVec Ideal S512x2048 .bf16) (j : S512x2048.Idx) :
    matmul dot_S512x512_S512x2048_S512x2048_1_0_0_1_n_n none A W (constant S512x2048 .f32 0x00000000#32) j
      = ∑ k : Fin 512, A (ix2 (j 0) k) * W (ix2 k (j 1)) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx j ((contrEquiv1 dot_S512x512_S512x2048_S512x2048_1_0_0_1_n_n 512 rfl rfl).symm k) = ix2 (j 0) k := funext fun a => Fin.ext (by
    match a with
    | ⟨0, _⟩ => exact lhs_row _ _
    | ⟨1, _⟩ => exact (lhs_col _ _).trans hk)
  have er : dot_S512x512_S512x2048_S512x2048_1_0_0_1_n_n.rhsIdx j ((contrEquiv1 dot_S512x512_S512x2048_S512x2048_1_0_0_1_n_n 512 rfl rfl).symm k) = ix2 k (j 1) := funext fun a => Fin.ext (by
    match a with
    | ⟨0, _⟩ => exact (rhs_row _ _).trans hk
    | ⟨1, _⟩ => exact rhs_col _ _)
  rw [el, er]
  rfl

/-- The bias row [1, 2048] broadcast over the 512 rows reads the row's entry of the column. -/
theorem bias_apply (b : FVec Ideal S1x2048 .f32) (j : S512x2048.Idx) :
    broadcastTo S512x2048 b broadcasts_S1x2048_S512x2048 j = b (ix2 (0 : Fin 1) (j 1)) :=
  broadcastTo_apply b broadcasts_S1x2048_S512x2048 j (ix2 (0 : Fin 1) (j 1)) (fun a => match a with
    | ⟨0, _⟩ => by show (0 : Nat) = if (1 : Nat) = 1 then 0 else (j 0).val; rw [if_pos rfl]
    | ⟨1, _⟩ => by show (j 1).val = if (2048 : Nat) = 1 then 0 else (j 1).val; rw [if_neg (by decide)])

/-- THE PRE-ACTIVATIONS OF A BLOCK at row `j 0` and gate column `j 1`: the two products' sums and the bias entry. -/
theorem gates_apply (X H : Vec Ideal S512x512 .f32) (Wx Wh : Vec Ideal S512x2048 .bf16) (b : Vec Ideal S1x2048 .f32) (j : S512x2048.Idx) :
    k0_pay1 X H Wx Wh b j
      = ((∑ k : Fin 512, X (ix2 (j 0) k) * Wx (ix2 k (j 1))) + (∑ k : Fin 512, H (ix2 (j 0) k) * Wh (ix2 k (j 1)))) + b (ix2 (0 : Fin 1) (j 1)) := by
  unfold k0_pay1
  rw [addf_apply, addf_apply, product_apply, product_apply, bias_apply, shapeCast_self, shapeCast_self, shapeCast_self]
  rfl

end Cert.KernelIdeal.GatesBlock

end
-- ==== Proof.LstmCell.lean ====
/-
  The LSTM cell as one function of its seven argument arrays, over the extended reals.

  For a batch row `r` and a gate column `q` (the four gates i, f, g, o sit side by side in the 2048 columns, 512 each)
  the pre-activation is
      gate r q = Σ_k x[r,k]·Wx[k,q] + Σ_k h[r,k]·Wh[k,q] + (bx[q] + bh[q]),
  and for a hidden column `j`
      c'[r,j] = σ(gate r (512+j)) · c[r,j] + σ(gate r j) · tanh(gate r (1024+j)),
      h'[r,j] = σ(gate r (1536+j)) · tanh(c'[r,j]),
  with σ x = 1 / (1 + e^(-x)) and the conventions of the extended reals at the infinities.

  Two facts about it are proved here, both from the commutative-monoid laws of + alone (no finiteness is used):
  the pre-activation may be summed in the order ((x·Wx + bx) + h·Wh) + bh, and σ is the quotient spelt out with the
  float pattern of 1.0 for its two ones.
-/
import Idealize.ShloMosaic.PureOps.Ideal
import Idealize.ShloMosaic.Lib.ValueIdx
import Idealize.ShloMosaic.Lib.IdealHost

noncomputable section

open scoped BigOperators

namespace Cert.LstmCell

open Idealize.ShloMosaic Idealize.ShloMosaic.ValueIdx

/-- A batch of 16384 rows of 512 numbers (the input, the hidden state, the cell state, and the two results). -/
abbrev Rows := (⟨2, ![16384, 512]⟩ : Shape).Idx → EReal
/-- A weight matrix: 512 input columns by 2048 gate columns. -/
abbrev Weights := (⟨2, ![512, 2048]⟩ : Shape).Idx → EReal
/-- A bias: one number per gate column. -/
abbrev Bias := (⟨1, ![2048]⟩ : Shape).Idx → EReal

/-- The gate column of hidden column `j` in the gate block that starts at column `o` (0, 512, 1024 or 1536). -/
abbrev col (o : Nat) (ho : o + 512 ≤ 2048) (j : Fin 512) : Fin 2048 := ⟨o + j.val, by have := j.isLt; omega⟩
/-- The gate column of hidden column `j` in the first gate block: column `j` itself. -/
abbrev col0 (j : Fin 512) : Fin 2048 := ⟨j.val, by have := j.isLt; omega⟩

/-- The pre-activation of gate column `q` at batch row `r`: the two matrix products and the two biases. -/
def gate (x h : Rows) (wx wh : Weights) (bx bh : Bias) (r : Fin 16384) (q : Fin 2048) : EReal :=
  ((∑ k : Fin 512, x (ix2 r k) * wx (ix2 k q)) + (∑ k : Fin 512, h (ix2 r k) * wh (ix2 k q))) + (bx (ix1 q) + bh (ix1 q))

/-- The same sum in the order a plain `x @ Wx + bx + h @ Wh + bh` takes it: + on the extended reals is commutative and
    associative, so the four terms may be regrouped freely. -/
theorem gate_eq_leftToRight (x h : Rows) (wx wh : Weights) (bx bh : Bias) (r : Fin 16384) (q : Fin 2048) :
    gate x h wx wh bx bh r q
      = (((∑ k : Fin 512, x (ix2 r k) * wx (ix2 k q)) + bx (ix1 q)) + (∑ k : Fin 512, h (ix2 r k) * wh (ix2 k q))) + bh (ix1 q) := by
  unfold gate
  rw [add_add_add_comm, ← add_assoc]

/-- The new cell state: forget gate times the old cell state plus input gate times the candidate. -/
def cellNext (x h c : Rows) (wx wh : Weights) (bx bh : Bias) : Rows := fun i =>
  Ideal.logistic (gate x h wx wh bx bh (i 0) (col 512 (by omega) (i 1))) * c i
    + Ideal.logistic (gate x h wx wh bx bh (i 0) (col0 (i 1))) * Ideal.tanh (gate x h wx wh bx bh (i 0) (col 1024 (by omega) (i 1)))

/-- The new hidden state: output gate times tanh of the new cell state. -/
def hiddenNext (x h c : Rows) (wx wh : Weights) (bx bh : Bias) : Rows := fun i =>
  Ideal.logistic (gate x h wx wh bx bh (i 0) (col 1536 (by omega) (i 1))) * Ideal.tanh (cellNext x h c wx wh bx bh i)

/-- σ written out as a quotient whose two ones are the float pattern of 1.0: the pattern denotes the extended real 1,
    and the quotient is the definition of σ. -/
theorem logistic_eq_quotient (z : EReal) :
    Ideal.div (Ideal.ofBits .f32 0x3F800000#32) (Ideal.ofBits .f32 0x3F800000#32 + Ideal.exp (-z)) = Ideal.logistic z := by
  rw [Ideal.ofBits_one_f32]
  rfl

end Cert.LstmCell

end
-- ==== Proof.CellBlock.lean ====
/-
  One batch block of the kernel is the LSTM cell on the block's rows.

  Suppose the six blocks the body loads at a grid point are what the pipeline stages there: rows 512·n … 512·n + 511 of
  `x`, `h` and `c`, the two weight matrices whole, and the bias row holding `bx + bh`. Then the block's pre-activation at
  (p, q) is the cell's `gate` at batch row 512·n + p, and the two blocks the body stores are the cell's new hidden and new
  cell state at those rows: the body slices the four gates out of the pre-activations at column offsets 0, 512, 1024, 1536
  and combines them pointwise, exactly as the cell's definition does.
-/
import proofs.«155237_j11115375362476_2_alg».proof.Proof.Gen.KernelIdeal.Value
import proofs.«155237_j11115375362476_2_alg».proof.Proof.GatesBlock
import proofs.«155237_j11115375362476_2_alg».proof.Proof.LstmCell

noncomputable section

open scoped BigOperators

namespace Cert.KernelIdeal.CellBlock

open Cert.KernelIdeal Cert.KernelIdeal.Gen Idealize.ShloMosaic Idealize.ShloMosaic.ValueIdx
open Cert.LstmCell (Rows Weights Bias gate cellNext hiddenNext col col0)

variable (x h c : Rows) (wx wh : Weights) (bx bh : Bias)
variable (X H C : Vec Ideal S512x512 .f32) (Wx Wh : Vec Ideal S512x2048 .bf16) (b : Vec Ideal S1x2048 .f32)

/-- Batch row 512·n + p of block `n` (there are 32 blocks of 512 rows). -/
abbrev row (n : Nat) (hn : n < 32) (p : Fin 512) : Fin 16384 := ⟨512 * n + p.val, by have := p.isLt; omega⟩

/-- The block's pre-activation at (p, q) is the cell's gate at batch row 512·n + p and column q. -/
theorem gates_of_rows (n : Nat) (hn : n < 32)
    (hX : ∀ i : S512x512.Idx, X i = x (ix2 (row n hn (i 0)) (i 1)))
    (hH : ∀ i : S512x512.Idx, H i = h (ix2 (row n hn (i 0)) (i 1)))
    (hWx : ∀ i : S512x2048.Idx, Wx i = wx i) (hWh : ∀ i : S512x2048.Idx, Wh i = wh i)
    (hb : ∀ q : Fin 2048, b (ix2 (0 : Fin 1) q) = bx (ix1 q) + bh (ix1 q)) (j : S512x2048.Idx) :
    k0_pay1 X H Wx Wh b j = gate x h wx wh bx bh (row n hn (j 0)) (j 1) := by
  rw [GatesBlock.gates_apply]
  unfold gate
  refine congrArg₂ (· + ·) (congrArg₂ (· + ·) (Finset.sum_congr rfl fun k _ => ?_) (Finset.sum_congr rfl fun k _ => ?_)) (hb (j 1))
  · exact congrArg₂ (· * ·) (hX _) (hWx _)
  · exact congrArg₂ (· * ·) (hH _) (hWh _)

/-- The same at an index named by its coordinates: the row of the block index `y`, and a gate column `q`. -/
theorem gates_at (n : Nat) (hn : n < 32)
    (hX : ∀ i : S512x512.Idx, X i = x (ix2 (row n hn (i 0)) (i 1)))
    (hH : ∀ i : S512x512.Idx, H i = h (ix2 (row n hn (i 0)) (i 1)))
    (hWx : ∀ i : S512x2048.Idx, Wx i = wx i) (hWh : ∀ i : S512x2048.Idx, Wh i = wh i)
    (hb : ∀ q : Fin 2048, b (ix2 (0 : Fin 1) q) = bx (ix1 q) + bh (ix1 q))
    (y : S512x512.Idx) (q : Fin 2048) (j : S512x2048.Idx)
    (hj0 : (j 0).val = (y 0).val) (hj1 : (j 1).val = q.val) :
    k0_pay1 X H Wx Wh b j = gate x h wx wh bx bh (row n hn (y 0)) q := by
  rw [gates_of_rows x h wx wh bx bh X H Wx Wh b n hn hX hH hWx hWh hb j]
  have e0 : row n hn (j 0) = row n hn (y 0) := Fin.ext (by show 512 * n + (j 0).val = 512 * n + (y 0).val; rw [hj0])
  have e1 : j 1 = q := Fin.ext hj1
  rw [e0, e1]

/-- THE STORED CELL BLOCK at block index `y` is the cell's new cell state at batch row 512·n + y 0, column y 1. -/
theorem cell_of_rows (n : Nat) (hn : n < 32)
    (hX : ∀ i : S512x512.Idx, X i = x (ix2 (row n hn (i 0)) (i 1)))
    (hH : ∀ i : S512x512.Idx, H i = h (ix2 (row n hn (i 0)) (i 1)))
    (hC : ∀ i : S512x512.Idx, C i = c (ix2 (row n hn (i 0)) (i 1)))
    (hWx : ∀ i : S512x2048.Idx, Wx i = wx i) (hWh : ∀ i : S512x2048.Idx, Wh i = wh i)
    (hb : ∀ q : Fin 2048, b (ix2 (0 : Fin 1) q) = bx (ix1 q) + bh (ix1 q)) (y : S512x512.Idx) :
    Value.E7 X H Wx Wh b C y = cellNext x h c wx wh bx bh (ix2 (row n hn (y 0)) (y 1)) := by
  show Ideal.logistic (k0_pay1 X H Wx Wh b (Value.ix7_0 y)) * C (Value.ix7_1 y)
      + Ideal.logistic (k0_pay1 X H Wx Wh b (Value.ix7_2 y)) * Ideal.tanh (k0_pay1 X H Wx Wh b (Value.ix7_3 y)) = _
  rw [gates_at x h wx wh bx bh X H Wx Wh b n hn hX hH hWx hWh hb y (col 512 (by omega) (y 1)) (Value.ix7_0 y) rfl (by show (y 1).val + 512 = 512 + (y 1).val; omega),
    gates_at x h wx wh bx bh X H Wx Wh b n hn hX hH hWx hWh hb y (col0 (y 1)) (Value.ix7_2 y) rfl rfl,
    gates_at x h wx wh bx bh X H Wx Wh b n hn hX hH hWx hWh hb y (col 1024 (by omega) (y 1)) (Value.ix7_3 y) rfl (by show (y 1).val + 1024 = 1024 + (y 1).val; omega),
    hC (Value.ix7_1 y)]
  rfl

/-- THE STORED HIDDEN BLOCK at block index `y` is the cell's new hidden state there. -/
theorem hidden_of_rows (n : Nat) (hn : n < 32)
    (hX : ∀ i : S512x512.Idx, X i = x (ix2 (row n hn (i 0)) (i 1)))
    (hH : ∀ i : S512x512.Idx, H i = h (ix2 (row n hn (i 0)) (i 1)))
    (hC : ∀ i : S512x512.Idx, C i = c (ix2 (row n hn (i 0)) (i 1)))
    (hWx : ∀ i : S512x2048.Idx, Wx i = wx i) (hWh : ∀ i : S512x2048.Idx, Wh i = wh i)
    (hb : ∀ q : Fin 2048, b (ix2 (0 : Fin 1) q) = bx (ix1 q) + bh (ix1 q)) (y : S512x512.Idx) :
    Value.E6 X H Wx Wh b C y = hiddenNext x h c wx wh bx bh (ix2 (row n hn (y 0)) (y 1)) := by
  show Ideal.logistic (k0_pay1 X H Wx Wh b (Value.ix6_0 y))
      * Ideal.tanh (Ideal.logistic (k0_pay1 X H Wx Wh b (Value.ix6_1 y)) * C (Value.ix6_2 y)
        + Ideal.logistic (k0_pay1 X H Wx Wh b (Value.ix6_3 y)) * Ideal.tanh (k0_pay1 X H Wx Wh b (Value.ix6_4 y))) = _
  rw [gates_at x h wx wh bx bh X H Wx Wh b n hn hX hH hWx hWh hb y (col 1536 (by omega) (y 1)) (Value.ix6_0 y) rfl (by show (y 1).val + 1536 = 1536 + (y 1).val; omega),
    gates_at x h wx wh bx bh X H Wx Wh b n hn hX hH hWx hWh hb y (col 512 (by omega) (y 1)) (Value.ix6_1 y) rfl (by show (y 1).val + 512 = 512 + (y 1).val; omega),
    gates_at x h wx wh bx bh X H Wx Wh b n hn hX hH hWx hWh hb y (col0 (y 1)) (Value.ix6_3 y) rfl rfl,
    gates_at x h wx wh bx bh X H Wx Wh b n hn hX hH hWx hWh hb y (col 1024 (by omega) (y 1)) (Value.ix6_4 y) rfl (by show (y 1).val + 1024 = 1024 + (y 1).val; omega),
    hC (Value.ix6_2 y)]
  rfl

end Cert.KernelIdeal.CellBlock

end
-- ==== Proof.StagedBlocks.lean ====
/-
  What the pipeline stages at a grid point, as entries of the seven argument arrays.

  The grid has 32 points; point `t` works on batch rows 512·t … 512·t + 511. The windows of `x`, `h` and `c` move with the
  point (block index (t, 0), blocks of 512 × 512), so their blocks at `t` are those rows of the arrays. The two weight
  windows and the bias window never move (block index (0, 0), the whole array). Before the region the host converts each
  weight matrix to another float format — the identity at the ideal values — and adds the two biases and reshapes the sum
  [2048] → [1, 2048], which keeps the row-major position: entry (0, q) is bx[q] + bh[q].
-/
import proofs.«155237_j11115375362476_2_alg».proof.Proof.Gen.KernelIdeal.Frame
import proofs.«155237_j11115375362476_2_alg».proof.Proof.CellBlock
import Idealize.ShloMosaic.Lib.Pipeline.Value
import Idealize.ShloMosaic.Lib.StableHlo.Run
import Idealize.ShloMosaic.Lib.ValueIdx

noncomputable section

namespace Cert.KernelIdeal.Staged

open Cert.KernelIdeal Cert.KernelIdeal.Gen Idealize.ShloMosaic Idealize.ShloMosaic.TcCoe Idealize.ShloMosaic.ValueIdx
open Idealize.SL.Sem Idealize.ShloMosaic.StableHlo

open Cert.LstmCell (Rows Weights Bias)

variable (m : (ℓ : Loc nD τ sig) → Buf (Elt Ideal) ℓ)

/-- The seven argument arrays on core `c`, as launched: `x`, `h`, `c`, `Wx`, `Wh`, `bx`, `bh`. -/
abbrev argX (c : Dev nD) : Rows := m ((c : Thread nD τ).loc main_arg0)
abbrev argH (c : Dev nD) : Rows := m ((c : Thread nD τ).loc main_arg1)
abbrev argC (c : Dev nD) : Rows := m ((c : Thread nD τ).loc main_arg2)
abbrev argWx (c : Dev nD) : Weights := m ((c : Thread nD τ).loc main_arg3)
abbrev argWh (c : Dev nD) : Weights := m ((c : Thread nD τ).loc main_arg4)
abbrev argBx (c : Dev nD) : Bias := m ((c : Thread nD τ).loc main_arg5)
abbrev argBh (c : Dev nD) : Bias := m ((c : Thread nD τ).loc main_arg6)
/-- The two converted weight matrices and the bias row as the region finds them. -/
abbrev foundWx (c : Dev nD) : Weights := V m c main_v0
abbrev foundWh (c : Dev nD) : Weights := V m c main_v1
abbrev foundBias (c : Dev nD) : (⟨2, ![1, 2048]⟩ : Shape).Idx → EReal := V m c main_v3

/-- A grid point's number is below 32. -/
theorem point_lt (t : Fin cfg0.N) : t.val < 32 := by
  have h := t.isLt
  have e : cfg0.N = 32 := N_0
  omega

/-- The printed index maps, decided over the 32 points: the three batch windows and the two result windows are at block
    (t, 0), the weight and bias windows at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The block of `x` at point `t`: rows 512·t … of the argument. -/
theorem x_block (c : Dev nD) (t : Fin cfg0.N) (i : S512x512.Idx) :
    (iblk m c 0 t : Vec Ideal S512x512 .f32) i
      = argX m c (ix2 (CellBlock.row t.val (point_lt t) (i 0)) (i 1)) := by
  obtain ⟨e0, e1, -⟩ := block_index t
  unfold iblk
  rw [View.read_apply]
  show V m c main_arg0 _ = _
  rw [V_main_arg0]
  congr 1
  funext a
  apply Fin.ext
  match a with
  | ⟨0, _⟩ => show win0_0.index t (0 : Fin 2) * 512 + 1 * (i 0).val = 512 * t.val + (i 0).val; rw [e0]; omega
  | ⟨1, _⟩ => show win0_0.index t (1 : Fin 2) * 512 + 1 * (i 1).val = (i 1).val; rw [e1]; omega

/-- The block of `h` at point `t`: the same rows of the second argument. -/
theorem h_block (c : Dev nD) (t : Fin cfg0.N) (i : S512x512.Idx) :
    (iblk m c 1 t : Vec Ideal S512x512 .f32) i
      = argH m c (ix2 (CellBlock.row t.val (point_lt t) (i 0)) (i 1)) := by
  obtain ⟨-, -, e0, e1, -⟩ := block_index t
  unfold iblk
  rw [View.read_apply]
  show V m c main_arg1 _ = _
  rw [V_main_arg1]
  congr 1
  funext a
  apply Fin.ext
  match a with
  | ⟨0, _⟩ => show win0_1.index t (0 : Fin 2) * 512 + 1 * (i 0).val = 512 * t.val + (i 0).val; rw [e0]; omega
  | ⟨1, _⟩ => show win0_1.index t (1 : Fin 2) * 512 + 1 * (i 1).val = (i 1).val; rw [e1]; omega

/-- The block of `c` at point `t`: the same rows of the third argument. -/
theorem c_block (c : Dev nD) (t : Fin cfg0.N) (i : S512x512.Idx) :
    (iblk m c 2 t : Vec Ideal S512x512 .f32) i
      = argC m c (ix2 (CellBlock.row t.val (point_lt t) (i 0)) (i 1)) := by
  obtain ⟨-, -, -, -, e0, e1, -⟩ := block_index t
  unfold iblk
  rw [View.read_apply]
  show V m c main_arg2 _ = _
  rw [V_main_arg2]
  congr 1
  funext a
  apply Fin.ext
  match a with
  | ⟨0, _⟩ => show win0_2.index t (0 : Fin 2) * 512 + 1 * (i 0).val = 512 * t.val + (i 0).val; rw [e0]; omega
  | ⟨1, _⟩ => show win0_2.index t (1 : Fin 2) * 512 + 1 * (i 1).val = (i 1).val; rw [e1]; omega

/-- The converted `Wx` the region finds is `Wx`: a change of float format is the identity at the ideal values. -/
theorem wx_found (c : Dev nD) :
    foundWx m c = argWx m c := by
  dsimp only [foundWx, foundWh, foundBias, Gen.V, Gen.hostOps0]; after_results; rfl

/-- The converted `Wh` the region finds is `Wh`. -/
theorem wh_found (c : Dev nD) :
    foundWh m c = argWh m c := by
  dsimp only [foundWx, foundWh, foundBias, Gen.V, Gen.hostOps0]; after_results; rfl

/-- The bias row the region finds is the reshaped sum of the two biases. -/
theorem bias_found (c : Dev nD) :
    foundBias m c
      = shapeCast S1x2048 (addf (F := Ideal) (s := S2048) (φ := .f32) (argBx m c) (argBh m c)) shapeCasts_S2048_S1x2048 := by
  dsimp only [foundWx, foundWh, foundBias, Gen.V, Gen.hostOps0]; after_results; rfl

/-- The staged `Wx` block at any point is the whole matrix. -/
theorem wx_block (c : Dev nD) (t : Fin cfg0.N) (i : S512x2048.Idx) :
    (iblk m c 3 t : Vec Ideal S512x2048 .bf16) i = argWx m c i := by
  obtain ⟨-, -, -, -, -, -, e0, e1, -⟩ := block_index t
  unfold iblk
  rw [View.read_apply]
  show foundWx m c _ = _
  rw [wx_found]
  congr 1
  funext a
  apply Fin.ext
  match a with
  | ⟨0, _⟩ => show win0_3.index t (0 : Fin 2) * 512 + 1 * (i 0).val = (i 0).val; rw [e0]; omega
  | ⟨1, _⟩ => show win0_3.index t (1 : Fin 2) * 2048 + 1 * (i 1).val = (i 1).val; rw [e1]; omega

/-- The staged `Wh` block at any point is the whole matrix. -/
theorem wh_block (c : Dev nD) (t : Fin cfg0.N) (i : S512x2048.Idx) :
    (iblk m c 4 t : Vec Ideal S512x2048 .bf16) i = argWh m c i := by
  obtain ⟨-, -, -, -, -, -, -, -, e0, e1, -⟩ := block_index t
  unfold iblk
  rw [View.read_apply]
  show foundWh m c _ = _
  rw [wh_found]
  congr 1
  funext a
  apply Fin.ext
  match a with
  | ⟨0, _⟩ => show win0_4.index t (0 : Fin 2) * 512 + 1 * (i 0).val = (i 0).val; rw [e0]; omega
  | ⟨1, _⟩ => show win0_4.index t (1 : Fin 2) * 2048 + 1 * (i 1).val = (i 1).val; rw [e1]; omega

/-- The staged bias row at any point, at column `q`: the sum of the two biases there. -/
theorem bias_block (c : Dev nD) (t : Fin cfg0.N) (q : Fin 2048) :
    (iblk m c 5 t : Vec Ideal S1x2048 .f32) (ix2 (0 : Fin 1) q)
      = argBx m c (ix1 q) + argBh m c (ix1 q) := by
  obtain ⟨-, -, -, -, -, -, -, -, -, -, e0, e1, -⟩ := block_index t
  unfold iblk
  rw [View.read_apply]
  show foundBias m c _ = _
  rw [bias_found]
  refine (shapeCast_apply _ _ _ (ix1 q) ?_).trans rfl
  rw [Shape.rowMajor_val_one, Shape.rowMajor_val_two]
  show q.val = (win0_5.index t (0 : Fin 2) * 1 + 1 * 0) * 2048 + (win0_5.index t (1 : Fin 2) * 2048 + 1 * q.val)
  rw [e0, e1]; omega

end Cert.KernelIdeal.Staged

end
-- ==== Proof.ResultArrays.lean ====
/-
  The two result arrays after the kernel's run are the LSTM cell of the argument arrays.

  Point `t` of the 32-point grid writes back block (t, 0) of each result: rows 512·t … 512·t + 511, all 512 columns. What
  it writes is the body's stored block, which (the staged blocks being those rows of the arguments) is the cell's new
  hidden, respectively new cell, state at those rows. Every batch row r lies in the block of point r / 512, so the blocks
  cover each result array, and each array ends holding the whole-array function.
-/
import proofs.«155237_j11115375362476_2_alg».proof.Proof.Gen.KernelIdeal.Value
import proofs.«155237_j11115375362476_2_alg».proof.Proof.StagedBlocks
import proofs.«155237_j11115375362476_2_alg».proof.Proof.CellBlock

noncomputable section

namespace Cert.KernelIdeal.ResultArrays

open Cert.KernelIdeal Cert.KernelIdeal.Gen Idealize.ShloMosaic Idealize.ShloMosaic.TcCoe Idealize.ShloMosaic.ValueIdx
open Idealize.SL.Sem
open Idealize.ShloMosaic.Pipeline (Dat)
open Cert.LstmCell (Rows Weights Bias cellNext hiddenNext)
open Cert.KernelIdeal.Staged

variable (m : (ℓ : Loc nD τ sig) → Buf (Elt Ideal) ℓ) (ρ : Dev nD → PrngReg)

theorem zero_offsets : (![0, 0] : Fin 2 → Nat) = fun _ => 0 := funext fun a => by fin_cases a <;> rfl

/-- The cell's new hidden state of core `c`'s argument arrays. -/
abbrev hiddenArr (c : Dev nD) : Rows :=
  hiddenNext (argX m c) (argH m c) (argC m c) (argWx m c) (argWh m c) (argBx m c) (argBh m c)
/-- The cell's new cell state of core `c`'s argument arrays. -/
abbrev cellArr (c : Dev nD) : Rows :=
  cellNext (argX m c) (argH m c) (argC m c) (argWx m c) (argWh m c) (argBx m c) (argBh m c)

/-- Batch row 512·t + y 0, column y 1, is where block index `y` of point `t`'s result block sits in the array. -/
theorem result_index (t : Fin cfg0.N) (y : S512x512.Idx) (j : S16384x512.Idx)
    (h0 : (j 0).val = 512 * t.val + (y 0).val) (h1 : (j 1).val = (y 1).val) :
    ix2 (CellBlock.row t.val (point_lt t) (y 0)) (y 1) = j := by
  funext a
  apply Fin.ext
  match a with
  | ⟨0, _⟩ => exact h0.symm
  | ⟨1, _⟩ => exact h1.symm

/-- WHAT POINT `t` WRITES BACK to the first result is block `t` of the new hidden state. -/
theorem hidden_flushed (c : Dev nD) (t : Fin cfg0.N) :
    (dats m 0 c).flushed 6 t = ((cfg0.win 6).blk t).view.read (Elt Ideal) (hiddenArr m c) := by
  rw [Value.flushed6]
  unfold out0_6
  simp only [View.ld_unit_zero (S := S512x512) zero_offsets, View.ld_unit_zero (S := S512x2048) zero_offsets,
    View.ld_unit_zero (S := S1x2048) zero_offsets]
  obtain ⟨-, -, -, -, -, -, -, -, -, -, -, -, e0, e1, -⟩ := block_index t
  funext y
  show View.canon (Val := Elt Ideal) (s := S512x512) (e := .f32) [⟨r0_0, k0_pay3 (F := Ideal) (iblk m c 0 t) (iblk m c 1 t) (iblk m c 3 t) (iblk m c 4 t) (iblk m c 5 t) (iblk m c 2 t)⟩] y
      = hiddenArr m c (((cfg0.win 6).blk t).view.emb y)
  refine (Value.canon6_eq (iblk m c 0 t) (iblk m c 1 t) (iblk m c 3 t) (iblk m c 4 t) (iblk m c 5 t) (iblk m c 2 t) y).trans ?_
  refine (CellBlock.hidden_of_rows (argX m c) (argH m c) (argC m c) (argWx m c) (argWh m c) (argBx m c) (argBh m c)
    (iblk m c 0 t) (iblk m c 1 t) (iblk m c 2 t) (iblk m c 3 t) (iblk m c 4 t) (iblk m c 5 t) t.val (point_lt t)
    (x_block m c t) (h_block m c t) (c_block m c t) (wx_block m c t) (wh_block m c t) (bias_block m c t) y).trans ?_
  refine congrArg (hiddenArr m c) (result_index t y _ ?_ ?_)
  · show win0_6.index t (0 : Fin 2) * 512 + 1 * (y 0).val = 512 * t.val + (y 0).val; rw [e0]; omega
  · show win0_6.index t (1 : Fin 2) * 512 + 1 * (y 1).val = (y 1).val; rw [e1]; omega

/-- WHAT POINT `t` WRITES BACK to the second result is block `t` of the new cell state. -/
theorem cell_flushed (c : Dev nD) (t : Fin cfg0.N) :
    (dats m 0 c).flushed 7 t = ((cfg0.win 7).blk t).view.read (Elt Ideal) (cellArr m c) := by
  rw [Value.flushed7]
  unfold out0_7
  simp only [View.ld_unit_zero (S := S512x512) zero_offsets, View.ld_unit_zero (S := S512x2048) zero_offsets,
    View.ld_unit_zero (S := S1x2048) zero_offsets]
  obtain ⟨-, -, -, -, -, -, -, -, -, -, -, -, -, -, e0, e1⟩ := block_index t
  funext y
  show View.canon (Val := Elt Ideal) (s := S512x512) (e := .f32) [⟨r0_0, k0_pay2 (F := Ideal) (iblk m c 0 t) (iblk m c 1 t) (iblk m c 3 t) (iblk m c 4 t) (iblk m c 5 t) (iblk m c 2 t)⟩] y
      = cellArr m c (((cfg0.win 7).blk t).view.emb y)
  refine (Value.canon7_eq (iblk m c 0 t) (iblk m c 1 t) (iblk m c 3 t) (iblk m c 4 t) (iblk m c 5 t) (iblk m c 2 t) y).trans ?_
  refine (CellBlock.cell_of_rows (argX m c) (argH m c) (argC m c) (argWx m c) (argWh m c) (argBx m c) (argBh m c)
    (iblk m c 0 t) (iblk m c 1 t) (iblk m c 2 t) (iblk m c 3 t) (iblk m c 4 t) (iblk m c 5 t) t.val (point_lt t)
    (x_block m c t) (h_block m c t) (c_block m c t) (wx_block m c t) (wh_block m c t) (bias_block m c t) y).trans ?_
  refine congrArg (cellArr m c) (result_index t y _ ?_ ?_)
  · show win0_7.index t (0 : Fin 2) * 512 + 1 * (y 0).val = 512 * t.val + (y 0).val; rw [e0]; omega
  · show win0_7.index t (1 : Fin 2) * 512 + 1 * (y 1).val = (y 1).val; rw [e1]; omega

/-- An index of the first result is in point `t`'s block iff each coordinate is in the block's range on its axis. -/
theorem mem_hidden_block (t : Fin cfg0.N) (i : S16384x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v4_0).slice (win0_6.rect t)).set ↔ _
  rw [View.set_slice_whole, Rect.mem_set_unit]
  exact Iff.rfl

/-- The same for the second result. -/
theorem mem_cell_block (t : Fin cfg0.N) (i : S16384x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v4_1).slice (win0_7.rect t)).set ↔ _
  rw [View.set_slice_whole, Rect.mem_set_unit]
  exact Iff.rfl

/-- The point whose block holds batch row `r`: r / 512. -/
theorem point_of_row (i : S16384x512.Idx) : ∃ t : Fin cfg0.N, t.val = (i 0).val / 512 := by
  have hi0 : (i 0).val < 16384 := (i 0).isLt
  have hN : cfg0.N = 32 := N_0
  exact ⟨⟨(i 0).val / 512, by omega⟩, rfl⟩

/-- Every index of the first result is in some point's block. -/
theorem hidden_cover (i : S16384x512.Idx) :
    ∃ t : Fin cfg0.N, (cfg0.win 6).flush t = true ∧ i ∈ ((cfg0.win 6).blk t).view.set := by
  have hi0 : (i 0).val < 16384 := (i 0).isLt
  have hi1 : (i 1).val < 512 := (i 1).isLt
  obtain ⟨t, ht⟩ := point_of_row i
  obtain ⟨-, -, -, -, -, -, -, -, -, -, -, -, e0, e1, -⟩ := block_index t
  refine ⟨t, flush0_6 t, ?_⟩
  rw [mem_hidden_block]
  intro a
  match a with
  | ⟨0, _⟩ => show win0_6.index t (0 : Fin 2) * 512 ≤ (i 0).val ∧ (i 0).val < win0_6.index t (0 : Fin 2) * 512 + 512; rw [e0, ht]; omega
  | ⟨1, _⟩ => show win0_6.index t (1 : Fin 2) * 512 ≤ (i 1).val ∧ (i 1).val < win0_6.index t (1 : Fin 2) * 512 + 512; rw [e1]; omega

/-- Every index of the second result is in some point's block. -/
theorem cell_cover (i : S16384x512.Idx) :
    ∃ t : Fin cfg0.N, (cfg0.win 7).flush t = true ∧ i ∈ ((cfg0.win 7).blk t).view.set := by
  have hi0 : (i 0).val < 16384 := (i 0).isLt
  have hi1 : (i 1).val < 512 := (i 1).isLt
  obtain ⟨t, ht⟩ := point_of_row i
  obtain ⟨-, -, -, -, -, -, -, -, -, -, -, -, -, -, e0, e1⟩ := block_index t
  refine ⟨t, flush0_7 t, ?_⟩
  rw [mem_cell_block]
  intro a
  match a with
  | ⟨0, _⟩ => show win0_7.index t (0 : Fin 2) * 512 ≤ (i 0).val ∧ (i 0).val < win0_7.index t (0 : Fin 2) * 512 + 512; rw [e0, ht]; omega
  | ⟨1, _⟩ => show win0_7.index t (1 : Fin 2) * 512 ≤ (i 1).val ∧ (i 1).val < win0_7.index t (1 : Fin 2) * 512 + 512; rw [e1]; omega

/-- THE FIRST RESULT ARRAY after the run is the new hidden state. -/
theorem hidden_final (c : Dev nD) : (dats m 0 c).arrAt 6 cfg0.N = hiddenArr m c :=
  (dats m 0 c).arrAt_eq_of_cover 6 (hiddenArr m c) (fun t _ => hidden_flushed m c t) hidden_cover

/-- THE SECOND RESULT ARRAY after the run is the new cell state. -/
theorem cell_final (c : Dev nD) : (dats m 0 c).arrAt 7 cfg0.N = cellArr m c :=
  (dats m 0 c).arrAt_eq_of_cover 7 (cellArr m c) (fun t _ => cell_flushed m c t) cell_cover

/-- The kernel's run, read: every weakly fair execution ends with the two results at the cell's new hidden and new cell
    state of the argument arrays, and the arguments unchanged. -/
theorem run : θ_run defs (onTc (τ := τ) (main (F := Ideal))) ⟨m, fun _ => 0, ρ⟩ fun r => ∀ c : Dev nD,
      r.2.mem ((c : Thread nD τ).loc main_v4_0) = hiddenArr m c
      ∧ r.2.mem ((c : Thread nD τ).loc main_v4_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (hidden_final m c), (h c).2.1.trans (cell_final m c), (h c).2.2⟩)
    (Value.run_blocks m ρ)

end Cert.KernelIdeal.ResultArrays

end
-- ==== Proof.ReferenceCell.lean ====
/-
  The reference program computes the LSTM cell.

  Read one operation at a time, the reference's pre-activation array at (r, q) is
      ((Σ_k x[r,k]·Wx[k,q] + bx[q]) + Σ_k h[r,k]·Wh[k,q]) + bh[q]
  — the cell's `gate`, its four terms taken left to right —, its four slices at column offsets 0, 512, 1024, 1536 are the four
  gates, each sigmoid is the quotient 1 / (1 + e^(-z)) with the float pattern of 1.0 for the ones, and the two results are the
  cell's new hidden and new cell state.
-/
import proofs.«155237_j11115375362476_2_alg».proof.Proof.Gen.ReferenceIdeal.Read
import proofs.«155237_j11115375362476_2_alg».proof.Proof.LstmCell

noncomputable section

open scoped BigOperators

namespace Cert.ReferenceIdeal.Cell

open Cert.ReferenceIdeal Cert.ReferenceIdeal.Gen Cert.ReferenceIdeal.Read Idealize.ShloMosaic Idealize.ShloMosaic.ValueIdx
open Cert.LstmCell (Rows Weights Bias gate cellNext hiddenNext col col0)

variable (x h c : Rows) (wx wh : Weights) (bx bh : Bias)

/-- The reference's pre-activations at (r, q) are the cell's gate there. -/
theorem gates_eq (j : S16384x2048.Idx) :
    val_main_v8 (F := Ideal) x h wx wh bx bh j = gate x h wx wh bx bh (j 0) (j 1) := by
  rw [val_main_v8_apply, val_main_v5_apply, val_main_v3_apply, val_main_v0_apply, val_main_v2_apply, val_main_v1_apply,
    val_main_v4_apply, val_main_v7_apply, val_main_v6_apply]
  refine Eq.trans ?_ (LstmCell.gate_eq_leftToRight x h wx wh bx bh (j 0) (j 1)).symm
  have el : ∀ k : Fin 512, lidx_main_v0 j k = ix2 (j 0) k := fun k => funext fun a => by
    match a with | ⟨0, _⟩ => rfl | ⟨1, _⟩ => rfl
  have er : ∀ k : Fin 512, ridx_main_v0 j k = ix2 k (j 1) := fun k => funext fun a => by
    match a with | ⟨0, _⟩ => rfl | ⟨1, _⟩ => rfl
  have el' : ∀ k : Fin 512, lidx_main_v4 j k = ix2 (j 0) k := fun k => funext fun a => by
    match a with | ⟨0, _⟩ => rfl | ⟨1, _⟩ => rfl
  have er' : ∀ k : Fin 512, ridx_main_v4 j k = ix2 k (j 1) := fun k => funext fun a => by
    match a with | ⟨0, _⟩ => rfl | ⟨1, _⟩ => rfl
  have eb : idx_main_v1 (idx_main_v2 j) = ix1 (j 1) := funext fun a => by
    match a with | ⟨0, _⟩ => rfl
  have eb' : idx_main_v6 (idx_main_v7 j) = ix1 (j 1) := funext fun a => by
    match a with | ⟨0, _⟩ => rfl
  refine congrArg₂ (· + ·) (congrArg₂ (· + ·) (congrArg₂ (· + ·) (Finset.sum_congr rfl fun k _ => ?_) (congrArg bx eb))
    (Finset.sum_congr rfl fun k _ => ?_)) (congrArg bh eb')
  · exact congrArg₂ (· * ·) (congrArg x (el k)) (congrArg wx (er k))
  · exact congrArg₂ (· * ·) (congrArg h (el' k)) (congrArg wh (er' k))

/-- The reference's second result is the cell's new cell state. -/
theorem cell_eq : val_main_v34 (F := Ideal) x h c wx wh bx bh = cellNext x h c wx wh bx bh := by
  funext i
  rw [val_main_v34_apply, val_main_v32_apply, val_main_v33_apply,
    val_main_v24_apply, val_main_v23_apply, val_main_cst_2_apply, val_main_v22_apply, val_main_v21_apply, val_main_cst_1_apply,
    val_main_v20_apply, val_main_v19_apply, val_main_v10_apply,
    val_main_v18_apply, val_main_v17_apply, val_main_cst_0_apply, val_main_v16_apply, val_main_v15_apply, val_main_cst_apply,
    val_main_v14_apply, val_main_v13_apply, val_main_v9_apply,
    val_main_v25_apply, val_main_v11_apply,
    gates_eq, gates_eq, gates_eq]
  simp only [Ideal.mulf_def, Ideal.addf_def, Ideal.hostDivf_def, Ideal.hostUnary_exp_def, Ideal.hostNegf_def, Ideal.negf_def,
    Ideal.hostUnary_tanh_def, Ideal.ofBits_def, LstmCell.logistic_eq_quotient]
  rfl

/-- The reference's first result is the cell's new hidden state. -/
theorem hidden_eq : val_main_v36 (F := Ideal) x h c wx wh bx bh = hiddenNext x h c wx wh bx bh := by
  funext i
  rw [val_main_v36_apply, val_main_v35_apply, cell_eq,
    val_main_v31_apply, val_main_v30_apply, val_main_cst_4_apply, val_main_v29_apply, val_main_v28_apply, val_main_cst_3_apply,
    val_main_v27_apply, val_main_v26_apply, val_main_v12_apply, gates_eq]
  simp only [Ideal.mulf_def, Ideal.addf_def, Ideal.hostDivf_def, Ideal.hostUnary_exp_def, Ideal.hostNegf_def, Ideal.negf_def,
    Ideal.hostUnary_tanh_def, Ideal.ofBits_def, LstmCell.logistic_eq_quotient]
  rfl

end Cert.ReferenceIdeal.Cell

end
-- ==== Proof.lean ====
/-
  The kernel computes the LSTM cell, and so does the reference.

  The kernel tiles the batch into 32 blocks of 512 rows. For each block it forms the pre-activations
  x·Wx + h·Wh + (bx + bh) (the two biases added once, before the region), cuts the four gates out of them and
  stores σ(o)·tanh(c') and c' = σ(f)·c + σ(i)·tanh(g). The reference forms ((x·Wx + bx) + h·Wh) + bh over the whole batch,
  writes each σ as 1 / (1 + e^(-z)), and returns the same two arrays. On the extended reals + is commutative and
  associative, so the two orders of the four-term sum agree at every entry, infinite ones included; a change of float
  format is the identity, a matrix product into a zero accumulator is the plain sum over the contracted axis, and the
  kernel's sigmoid is by definition the reference's quotient. Hence both programs end with the cell's new hidden and new
  cell state of the same arguments (`LstmCell.hiddenNext`, `LstmCell.cellNext`), entry by entry. No finiteness of the
  inputs is used.

  The three frames are the generated ones (the reference's is its run with the results dropped); the idealized kernel is
  the kernel's own text read at the ideal values, so the preservation claim holds trivially.
-/
import proofs.«155237_j11115375362476_2_alg».proof.Defs
import proofs.«155237_j11115375362476_2_alg».proof.Proof.Gen.Kernel
import proofs.«155237_j11115375362476_2_alg».proof.Proof.Gen.Kernel.Skeleton
import proofs.«155237_j11115375362476_2_alg».proof.Proof.Gen.Kernel.Launch
import proofs.«155237_j11115375362476_2_alg».proof.Proof.Gen.Kernel.Points
import proofs.«155237_j11115375362476_2_alg».proof.Proof.Gen.Kernel.Frame
import proofs.«155237_j11115375362476_2_alg».proof.Proof.Gen.KernelIdeal
import proofs.«155237_j11115375362476_2_alg».proof.Proof.Gen.KernelIdeal.Skeleton
import proofs.«155237_j11115375362476_2_alg».proof.Proof.Gen.KernelIdeal.Launch
import proofs.«155237_j11115375362476_2_alg».proof.Proof.Gen.KernelIdeal.Points
import proofs.«155237_j11115375362476_2_alg».proof.Proof.Gen.KernelIdeal.Frame
import proofs.«155237_j11115375362476_2_alg».proof.Proof.Gen.ReferenceIdeal
import proofs.«155237_j11115375362476_2_alg».proof.Proof.Gen.KernelIdeal.Value
import proofs.«155237_j11115375362476_2_alg».proof.Proof.Gen.ReferenceIdeal.Run
import proofs.«155237_j11115375362476_2_alg».proof.Proof.Gen.ReferenceIdeal.Read
import proofs.«155237_j11115375362476_2_alg».proof.Proof.Gen.Pre_finite_inputs
import proofs.«155237_j11115375362476_2_alg».proof.Proof.ResultArrays
import proofs.«155237_j11115375362476_2_alg».proof.Proof.ReferenceCell
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read at the ideal values: no rewrite to account for. -/
theorem preserves : Cert.preserves_Kernel_KernelIdeal := trivial

/-- From memories that agree on the seven arguments, both programs end with the LSTM cell's new hidden and new cell state
    of those arguments. -/
theorem algebraic : Cert.algebraic_KernelIdeal_ReferenceIdeal := by
  intro m ρ m' ρ' _ hagree
  refine ⟨fun c => Cert.KernelIdeal.ResultArrays.hiddenArr m c, fun c => Cert.KernelIdeal.ResultArrays.cellArr m c,
    Cert.KernelIdeal.ResultArrays.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · refine (Cert.ReferenceIdeal.Read.val_main_v36_eq _ _ _ _ _ _ _).trans ((Cert.ReferenceIdeal.Cell.hidden_eq _ _ _ _ _ _ _).trans ?_)
    rw [a0, a1, a2, a3, a4, a5, a6]
  · refine (Cert.ReferenceIdeal.Read.val_main_v34_eq _ _ _ _ _ _ _).trans ((Cert.ReferenceIdeal.Cell.cell_eq _ _ _ _ _ _ _).trans ?_)
    rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
